-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4 : Shape := ⟨1, ![4]⟩
abbrev S4x96x512 : Shape := ⟨3, ![4, 96, 512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x96x512 : S_.BroadcastsInDim S4x96x512 (![] : Fin 0 → Fin S4x96x512.rank)
  reducesTo_S4x96x512_S_d0_1_2 : S4x96x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : IVec S4 32) (main_arg2 : FVec F S4x96x512 .f32) (main_arg3 : IVec S4 32) (main_arg4 : FVec F S1024x512 .f32) (main_arg5 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x96x512 .f32 := Host.absf main_arg2
  let main_cst_0 : FVec F S_ .f32 := constant S_ .f32 0x7F800000#32
  let main_v5 : FVec F S4x96x512 .f32 := broadcastInDim S4x96x512 ![] bcast_S_S4x96x512 main_cst_0
  let main_v6 : IVec S4x96x512 1 := cmpf .olt main_v4 main_v5
  let main_c_1 : IVec S_ 1 := constantI S_ 1 1#1
  let main_v7 : IVec S_ 1 := (fun x v => Host.reduce IntOp.andi x v reducesTo_S4x96x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4 : Shape := ⟨1, ![4]⟩
abbrev S4x96x512 : Shape := ⟨3, ![4, 96, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S4x256x96x1024 : Shape := ⟨4, ![4, 256, 96, 1024]⟩
abbrev S1x32x512 : Shape := ⟨3, ![1, 32, 512]⟩
abbrev S1x96x512 : Shape := ⟨3, ![1, 96, 512]⟩
abbrev S1x32x96x1024 : Shape := ⟨4, ![1, 32, 96, 1024]⟩
abbrev S32x512 : Shape := ⟨2, ![32, 512]⟩
abbrev S96x512 : Shape := ⟨2, ![96, 512]⟩
abbrev S32x1x512 : Shape := ⟨3, ![32, 1, 512]⟩
abbrev S32x96x512 : Shape := ⟨3, ![32, 96, 512]⟩
abbrev S3072x512 : Shape := ⟨2, ![3072, 512]⟩
abbrev S512x512 : Shape := ⟨2, ![512, 512]⟩
abbrev S1x512 : Shape := ⟨2, ![1, 512]⟩
abbrev S1x32x96x512 : Shape := ⟨4, ![1, 32, 96, 512]⟩

abbrev nBuf : Space → Nat
  | .hbm => 10
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x96x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S1x1024, .f32⟩
  | .hbm, ⟨9, _⟩ => ⟨S4x256x96x1024, .f32⟩
  | .local _ .vmem, ⟨0, _⟩ => ⟨S1x32x512, .f32⟩
  | .local _ .vmem, ⟨1, _⟩ => ⟨S1x32x512, .f32⟩
  | .local _ .vmem, ⟨2, _⟩ => ⟨S1x96x512, .f32⟩
  | .local _ .vmem, ⟨3, _⟩ => ⟨S1x96x512, .f32⟩
  | .local _ .vmem, ⟨4, _⟩ => ⟨S512x1024, .bf16⟩
  | .local _ .vmem, ⟨5, _⟩ => ⟨S1x1024, .f32⟩
  | .local _ .vmem, ⟨6, _⟩ => ⟨S1x32x96x1024, .f32⟩
  | .local _ .vmem, ⟨7, _⟩ => ⟨S1x32x96x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x96x512_S1x96x512_0_0_0 : ∀ a, (![0, 0, 0] : Fin 3 → Nat) a + S1x96x512.size a ≤ S1x96x512.size a
  h_S1x96x512 : 0 < S1x96x512.numel
  shapeCasts_S1x96x512_S96x512 : S1x96x512.ShapeCasts S96x512
  shapeCasts_S32x512_S32x1x512 : S32x512.ShapeCasts S32x1x512
  shapeCasts_S96x512_S1x96x512 : S96x512.ShapeCasts S1x96x512
  broadcasts_S32x1x512_S32x96x512 : S32x1x512.Broadcasts S32x96x512
  broadcasts_S1x96x512_S32x96x512 : S1x96x512.Broadcasts S32x96x512
  shapeCasts_S32x96x512_S3072x512 : S32x96x512.ShapeCasts S3072x512
  inb_S512x1024_S512x512_0_0 : ∀ a, (![0, 0] : Fin 2 → Nat) a + S512x512.size a ≤ S512x1024.size a
  h_S512x512 : 0 < S512x512.numel
  shapeCasts_S512x512_S512x512 : S512x512.ShapeCasts S512x512
  inb_S1x1024_S1x512_0_0 : ∀ a, (![0, 0] : Fin 2 → Nat) a + S1x512.size a ≤ S1x1024.size a
  h_S1x512 : 0 < S1x512.numel
  shapeCasts_S1x512_S1x512 : S1x512.ShapeCasts S1x512
  broadcasts_S1x512_S3072x512 : S1x512.Broadcasts S3072x512
  shapeCasts_S3072x512_S32x96x512 : S3072x512.ShapeCasts S32x96x512
  inb_S1x32x96x1024_S1x32x96x512_0_0_0_0 : ∀ a, (![0, 0, 0, 0] : Fin 4 → Nat) a + S1x32x96x512.size a ≤ S1x32x96x1024.size a
  h_S1x32x96x512 : 0 < S1x32x96x512.numel
  shapeCasts_S1x32x96x512_S32x96x512 : S1x32x96x512.ShapeCasts S32x96x512
  shapeCasts_S32x96x512_S1x32x96x512 : S32x96x512.ShapeCasts S1x32x96x512
  inb_S512x1024_S512x512_0_512 : ∀ a, (![0, 512] : Fin 2 → Nat) a + S512x512.size a ≤ S512x1024.size a
  inb_S1x1024_S1x512_0_512 : ∀ a, (![0, 512] : Fin 2 → Nat) a + S1x512.size a ≤ S1x1024.size a
  inb_S1x32x96x1024_S1x32x96x512_0_0_0_512 : ∀ a, (![0, 0, 0, 512] : Fin 4 → Nat) a + S1x32x96x512.size a ≤ S1x32x96x1024.size a
  dot_S3072x512_S512x512_S3072x512_1_0_0_1_n_n_wf : DotDims.WF S3072x512 S512x512 S3072x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x512.size a ≤ S4x96x512.size a
  hwx0_1 : ∀ i : grid0.Coords, EltTy.bits .f32 = 32 ∨ (Rect.block (s := S4x96x512) S1x96x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x96x1024.size a ≤ S4x256x96x1024.size a
  hwx0_4 : ∀ i : grid0.Coords, EltTy.bits .f32 = 32 ∨ (Rect.block (s := S4x256x96x1024) S1x32x96x1024.size (cc0_transform_4 i) (hinb0_4 i)).WholeWords (EltTy.packing .f32)

variable [Facts₀]

def dot_S3072x512_S512x512_S3072x512_1_0_0_1_n_n : DotDims S3072x512 S512x512 S3072x512 where
  lhsContracting := [1]
  rhsContracting := [0]
  lhsNonContracting := [0]
  rhsNonContracting := [1]
  lhsBatch := []
  rhsBatch := []
  wf := dot_S3072x512_S512x512_S3072x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x96x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x96x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4 : Shape := ⟨1, ![4]⟩
abbrev S4x96x512 : Shape := ⟨3, ![4, 96, 512]⟩
abbrev S1024x512 : Shape := ⟨2, ![1024, 512]⟩
abbrev S1024 : Shape := ⟨1, ![1024]⟩
abbrev S4x256x1x512 : Shape := ⟨4, ![4, 256, 1, 512]⟩
abbrev S4x1x96x512 : Shape := ⟨4, ![4, 1, 96, 512]⟩
abbrev S4x256x96x512 : Shape := ⟨4, ![4, 256, 96, 512]⟩
abbrev S_ : Shape := ⟨0, ![]⟩
abbrev S4x256x96x1024 : Shape := ⟨4, ![4, 256, 96, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4, .i32⟩
  | .hbm, ⟨2, _⟩ => ⟨S4x96x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S4x256x1x512, .f32⟩
  | .hbm, ⟨7, _⟩ => ⟨S4x1x96x512, .f32⟩
  | .hbm, ⟨8, _⟩ => ⟨S4x256x96x512, .f32⟩
  | .hbm, ⟨9, _⟩ => ⟨S4x256x96x512, .f32⟩
  | .hbm, ⟨10, _⟩ => ⟨S4x256x96x512, .f32⟩
  | .hbm, ⟨11, _⟩ => ⟨S_, .f32⟩
  | .hbm, ⟨12, _⟩ => ⟨S4x256x96x512, .f32⟩
  | .hbm, ⟨13, _⟩ => ⟨S4x256x96x512, .f32⟩
  | .hbm, ⟨14, _⟩ => ⟨S4x256x96x1024, .f32⟩
  | .hbm, ⟨15, _⟩ => ⟨S1x1x1x1024, .f32⟩
  | .hbm, ⟨16, _⟩ => ⟨S4x256x96x1024, .f32⟩
  | .hbm, ⟨17, _⟩ => ⟨S4x256x96x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S4x256x512_S4x256x1x512_0_1_3 : S4x256x512.BroadcastsInDim S4x256x1x512 (![0, 1, 3] : Fin 3 → Fin S4x256x1x512.rank)
  bcast_S4x96x512_S4x1x96x512_0_2_3 : S4x96x512.BroadcastsInDim S4x1x96x512 (![0, 2, 3] : Fin 3 → Fin S4x1x96x512.rank)
  bcast_S4x256x1x512_S4x256x96x512_0_1_2_3 : S4x256x1x512.BroadcastsInDim S4x256x96x512 (![0, 1, 2, 3] : Fin 4 → Fin S4x256x96x512.rank)
  bcast_S4x1x96x512_S4x256x96x512_0_1_2_3 : S4x1x96x512.BroadcastsInDim S4x256x96x512 (![0, 1, 2, 3] : Fin 4 → Fin S4x256x96x512.rank)
  bcast_S_S4x256x96x512 : S_.BroadcastsInDim S4x256x96x512 (![] : Fin 0 → Fin S4x256x96x512.rank)
  bcast_S1024_S1x1x1x1024_3 : S1024.BroadcastsInDim S1x1x1x1024 (![3] : Fin 1 → Fin S1x1x1x1024.rank)
  bcast_S1x1x1x1024_S4x256x96x1024_0_1_2_3 : S1x1x1x1024.BroadcastsInDim S4x256x96x1024 (![0, 1, 2, 3] : Fin 4 → Fin S4x256x96x1024.rank)
  dot_S4x256x96x512_S1024x512_S4x256x96x1024_3_1_012_0_n_n_wf : DotDims.WF S4x256x96x512 S1024x512 S4x256x96x1024 [3] [1] [0, 1, 2] [0] [] []

variable [Facts₀]

def dot_S4x256x96x512_S1024x512_S4x256x96x1024_3_1_012_0_n_n : DotDims S4x256x96x512 S1024x512 S4x256x96x1024 where
  lhsContracting := [3]
  rhsContracting := [1]
  lhsNonContracting := [0, 1, 2]
  rhsNonContracting := [0]
  lhsBatch := []
  rhsBatch := []
  wf := dot_S4x256x96x512_S1024x512_S4x256x96x1024_3_1_012_0_n_n_wf

class Facts : Prop extends Facts₀ where

variable [Facts]
-- ==== Proof.Spec.lean ====
/-
  The value both programs compute.

  For source features `s` (4 utterances, 256 frames, 512 features), target features `g` (4 utterances, 96 labels, 512
  features), a weight matrix `W` (1024 rows of 512) and a bias `b` (1024 entries), entry (n, t, u, v) of the result is
      (∑ k, max (s(n,t,k) + g(n,u,k)) 0 · W(v,k)) + b(v):
  frame t's and label u's feature rows added, clipped below at zero, paired with row v of the weights, plus the bias.

  `entry` is that number written from the three rows and the one bias entry it depends on; `joint` is the whole
  array. Everything is over the extended reals, where the sum, the product and `max` are total, so no finiteness
  of the inputs is needed to state it or to compare two evaluations that form the same products in the same sum.
-/
import Idealize.ShloMosaic.Lib.ValueIdx

noncomputable section

namespace Cert.Joiner

open Idealize.ShloMosaic Idealize.ShloMosaic.ValueIdx

/-- One entry of the result from a source row, a target row, a weight row and a bias entry:
    `(∑ k, max (srow k + grow k) 0 · wrow k) + bias`. -/
def entry (srow grow wrow : Fin 512 → EReal) (bias : EReal) : EReal :=
  (∑ k : Fin 512, max (srow k + grow k) 0 * wrow k) + bias

/-- The whole result: entry (n, t, u, v) is `entry` of row (n, t) of `s`, row (n, u) of `g`, row v of `W` and `b v`. -/
def joint (s : (⟨3, ![4, 256, 512]⟩ : Shape).Idx → EReal) (g : (⟨3, ![4, 96, 512]⟩ : Shape).Idx → EReal)
    (W : (⟨2, ![1024, 512]⟩ : Shape).Idx → EReal) (b : (⟨1, ![1024]⟩ : Shape).Idx → EReal) :
    (⟨4, ![4, 256, 96, 1024]⟩ : Shape).Idx → EReal :=
  fun i => entry (fun k => s (ix3 (i 0) (i 1) k)) (fun k => g (ix3 (i 0) (i 2) k)) (fun k => W (ix2 (i 3) k)) (b (ix1 (i 3)))

end Cert.Joiner

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibRowReshape.lean ====
/-
  A reshape that merges, or splits, the two leading axes of a rank-3 array, read at an index given by its coordinates.

  A shape cast keeps the row-major position of every entry. In the shape [a, b, c] the entry (p, q, k) sits at position
  (p·b + q)·c + k; in the shape [m, c] the entry (r, k) sits at position r·c + k. The two positions agree exactly when
  r = p·b + q, so

  * [a, b, c] merged to [m, c] reads, at (p·b + q, k), the operand at (p, q, k)   (`shapeCast_abc_mc_apply`);
  * [m, c] split to [a, b, c] reads, at (p, q, k), the operand at (p·b + q, k)     (`shapeCast_mc_abc_apply`).

  The row is passed as an index `r : Fin m` together with the equation `r = p·b + q` on its value, so that no bound on
  p·b + q has to be carried in the statement; that the shapes have equally many entries (m = a·b when c ≠ 0) is part of
  the shape-cast hypothesis and is not used otherwise.
-/
import Idealize.ShloMosaic.Lib.Pipeline.Value
import Idealize.ShloMosaic.Lib.ValueIdx

namespace Cert.RowReshape

open Idealize.ShloMosaic Idealize.ShloMosaic.ValueIdx

variable {α : Type}

/-- [a, b, c] merged to [a·b, c]: the entry at (row, k), where row = p·b + q, is the operand at (p, q, k). -/
theorem shapeCast_abc_mc_apply {a b c m : ℕ} (x : (⟨3, ![a, b, c]⟩ : Shape).Idx → α)
    (h : (⟨3, ![a, b, c]⟩ : Shape).ShapeCasts ⟨2, ![m, c]⟩)
    (p : Fin a) (q : Fin b) (k : Fin c) (r : Fin m) (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- [a·b, c] split to [a, b, c]: the entry at (p, q, k) is the operand at (p·b + q, k). -/
theorem shapeCast_mc_abc_apply {a b c m : ℕ} (y : (⟨2, ![m, c]⟩ : Shape).Idx → α)
    (h : (⟨2, ![m, c]⟩ : Shape).ShapeCasts ⟨3, ![a, b, c]⟩)
    (p : Fin a) (q : Fin b) (k : Fin c) (r : Fin m) (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

end Cert.RowReshape
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.Payload.lean ====
/-
  The body's two stored values read at an entry.

  Both stored values are one computation on different column halves of the weights and the bias. The source block's
  32 rows and the target block's 96 rows are each rounded (the identity at the ideal values), laid out as 32 × 96 row
  pairs by two broadcasts, added and clipped below at zero, and merged into a 3072-row matrix whose row r·96 + u is the
  clipped sum of source row r and target row u (`relu_rows`). That matrix is multiplied into a zero accumulator by a
  512 × 512 half of the weights, the matching half of the bias row is added to every row, and the 3072 rows are split
  back into 32 × 96 (`stage_apply`); one stored value adds the leading unit axis once more, the other is given with it.
  Read at (r, u, c) this is (∑ k, max (s(r,k) + g(u,k)) 0 · w(k,c)) + b(c), which is `entry`.
-/
import proofs.«155946_j34565896798556_2_alg».proof.Proof.Gen.KernelIdeal.Skeleton
import proofs.«155946_j34565896798556_2_alg».proof.Proof.Spec
import proofs.«155946_j34565896798556_2_alg».proof.Proof.LibDenseLayer
import proofs.«155946_j34565896798556_2_alg».proof.Proof.LibRowReshape
import proofs.«155946_j34565896798556_2_alg».proof.Proof.LibLayout3
import Idealize.ShloMosaic.Lib.ValueLayout
import Idealize.ShloMosaic.Lib.Pipeline.Value
import Idealize.ShloMosaic.PureOps.Ideal.Laws

noncomputable section

namespace Cert.Joiner.Body

open Cert.KernelIdeal Cert.KernelIdeal.Gen Idealize.ShloMosaic Idealize.ShloMosaic.ValueIdx

/-- The bf16 pattern of all zero bits denotes the extended real `0`. -/
theorem ofBits_zero_bf16 : Ideal.ofBits .bf16 0x0000#16 = 0 := by simp [Ideal.ofBits, Ideal.ieee]

/-- The source block laid out over the row pairs: at (r, u, k) it is source row r at k, whatever u. -/
theorem src_pairs (x0 : Vec Ideal S1x32x512 .f32) (r : Fin 32) (u : Fin 96) (k : Fin 512) :
    broadcastTo S32x96x512
        (shapeCast S32x1x512 (truncf (F := Ideal) .bf16 (shapeCast S32x512 x0 shapeCasts_S1x32x512_S32x512) bitsLt_bf16_f32)
          shapeCasts_S32x512_S32x1x512)
        broadcasts_S32x1x512_S32x96x512 (ix3 r u k)
      = x0 (ix3 (0 : Fin 1) r k) := by
  refine (Cert.Layout3.broadcastTo_a1c_abc_apply _ broadcasts_S32x1x512_S32x96x512 r u k).trans ?_
  refine (Cert.Layout3.shapeCast_ab_a1b_apply _ shapeCasts_S32x512_S32x1x512 r (0 : Fin 1) k).trans ?_
  exact shapeCast_1ab_ab_apply x0 shapeCasts_S1x32x512_S32x512 r k

/-- The target block laid out over the row pairs: at (r, u, k) it is target row u at k, whatever r. -/
theorem tgt_pairs (x1 : Vec Ideal S1x96x512 .f32) (r : Fin 32) (u : Fin 96) (k : Fin 512) :
    broadcastTo S32x96x512
        (shapeCast S1x96x512 (truncf (F := Ideal) .bf16 (shapeCast S96x512 x1 shapeCasts_S1x96x512_S96x512) bitsLt_bf16_f32)
          shapeCasts_S96x512_S1x96x512)
        broadcasts_S1x96x512_S32x96x512 (ix3 r u k)
      = x1 (ix3 (0 : Fin 1) u k) := by
  refine (broadcastTo_apply _ broadcasts_S1x96x512_S32x96x512 (ix3 r u k) (ix3 (0 : Fin 1) u k) fun ax => ?_).trans ?_
  · match ax with
    | ⟨0, _⟩ => rfl
    | ⟨1, _⟩ => rfl
    | ⟨2, _⟩ => rfl
  refine (shapeCast_ab_1ab_apply _ shapeCasts_S96x512_S1x96x512 (0 : Fin 1) u k).trans ?_
  exact shapeCast_1ab_ab_apply x1 shapeCasts_S1x96x512_S96x512 u k

/-- Row r·96 + u of the merged matrix is the clipped sum of source row r and target row u. -/
theorem relu_rows (x0 : Vec Ideal S1x32x512 .f32) (x1 : Vec Ideal S1x96x512 .f32) (r : Fin 32) (u : Fin 96) (k : Fin 512)
    (ρ : Fin 3072) (hρ : ρ.val = r.val * 96 + u.val) :
    k0_pay2 (F := Ideal) x0 x1 (ix2 ρ k) = max (x0 (ix3 (0 : Fin 1) r k) + x1 (ix3 (0 : Fin 1) u k)) 0 := by
  unfold k0_pay2
  refine (Cert.RowReshape.shapeCast_abc_mc_apply _ shapeCasts_S32x96x512_S3072x512 r u k ρ hρ).trans ?_
  exact congrArg₂ max (congrArg₂ (· + ·) (src_pairs x0 r u k) (tgt_pairs x1 r u k)) ofBits_zero_bf16

/-! The matrix unit's dimension record contracts axis 1 of the left operand with axis 0 of the right one: its left index
    takes the output row and the contraction position, its right index the contraction position and the output column. -/

theorem dot_lhs0 (i : S3072x512.Idx) (q : dot_S3072x512_S512x512_S3072x512_1_0_0_1_n_n.contr.Idx) :
    (dot_S3072x512_S512x512_S3072x512_1_0_0_1_n_n.lhsIdx i q 0).val = (i 0).val := by
  unfold DotDims.lhsIdx
  rw [dif_neg (show ¬(0 : Fin S3072x512.rank) ∈ dot_S3072x512_S512x512_S3072x512_1_0_0_1_n_n.lhsBatch by decide),
    dif_pos (show (0 : Fin S3072x512.rank) ∈ dot_S3072x512_S512x512_S3072x512_1_0_0_1_n_n.lhsNonContracting by decide)]
  rfl

theorem dot_lhs1 (i : S3072x512.Idx) (q : dot_S3072x512_S512x512_S3072x512_1_0_0_1_n_n.contr.Idx) :
    (dot_S3072x512_S512x512_S3072x512_1_0_0_1_n_n.lhsIdx i q 1).val = (q ⟨0, by decide⟩).val :=
  dot_S3072x512_S512x512_S3072x512_1_0_0_1_n_n.lhsIdx_val_of_single rfl i q

theorem dot_rhs0 (i : S3072x512.Idx) (q : dot_S3072x512_S512x512_S3072x512_1_0_0_1_n_n.contr.Idx) :
    (dot_S3072x512_S512x512_S3072x512_1_0_0_1_n_n.rhsIdx i q 0).val = (q ⟨0, by decide⟩).val :=
  dot_S3072x512_S512x512_S3072x512_1_0_0_1_n_n.rhsIdx_val_of_single rfl i q

theorem dot_rhs1 (i : S3072x512.Idx) (q : dot_S3072x512_S512x512_S3072x512_1_0_0_1_n_n.contr.Idx) :
    (dot_S3072x512_S512x512_S3072x512_1_0_0_1_n_n.rhsIdx i q 1).val = (i 1).val := by
  unfold DotDims.rhsIdx
  rw [dif_neg (show ¬(1 : Fin S512x512.rank) ∈ dot_S3072x512_S512x512_S3072x512_1_0_0_1_n_n.rhsBatch by decide),
    dif_pos (show (1 : Fin S512x512.rank) ∈ dot_S3072x512_S512x512_S3072x512_1_0_0_1_n_n.rhsNonContracting by decide)]
  rfl

/-- The [32, 96, 512] stage read at (r, u, c): the matrix product's row r·96 + u against column c of the weights, plus
    the bias at c. -/
theorem stage_apply (x0 : Vec Ideal S1x32x512 .f32) (x1 : Vec Ideal S1x96x512 .f32) (w : Vec Ideal S512x512 .bf16)
    (bh : Vec Ideal S1x512 .f32) (r : Fin 32) (u : Fin 96) (c : Fin 512) :
    k0_pay4 (F := Ideal) x0 x1 w bh (ix3 r u c)
      = entry (fun k => x0 (ix3 (0 : Fin 1) r k)) (fun k => x1 (ix3 (0 : Fin 1) u k)) (fun k => w (ix2 k c)) (bh (ix2 (0 : Fin 1) c)) := by
  have hlt : r.val * 96 + u.val < 3072 := by have := r.isLt; have := u.isLt; omega
  unfold k0_pay4
  refine (Cert.RowReshape.shapeCast_mc_abc_apply _ shapeCasts_S3072x512_S32x96x512 r u c ⟨r.val * 96 + u.val, hlt⟩ rfl).trans ?_
  rw [shapeCast_self, shapeCast_self]
  refine (congrArg₂ (· + ·)
    (Cert.DenseLayer.matmul_rows_cols dot_S3072x512_S512x512_S3072x512_1_0_0_1_n_n rfl rfl dot_lhs0 dot_lhs1 dot_rhs0 dot_rhs1
      none (k0_pay2 (F := Ideal) x0 x1) w ⟨r.val * 96 + u.val, hlt⟩ c)
    (broadcastTo_1b_ab_apply bh broadcasts_S1x512_S3072x512 ⟨r.val * 96 + u.val, hlt⟩ c)).trans ?_
  unfold entry
  exact congrArg (· + bh (ix2 (0 : Fin 1) c)) (Finset.sum_congr rfl fun k _ =>
    congrArg (· * w (ix2 k c)) (relu_rows x0 x1 r u k ⟨r.val * 96 + u.val, hlt⟩ rfl))

theorem lowerHalf_apply (x0 : Vec Ideal S1x32x512 .f32) (x1 : Vec Ideal S1x96x512 .f32) (w : Vec Ideal S512x512 .bf16)
    (bh : Vec Ideal S1x512 .f32) (r : Fin 32) (u : Fin 96) (c : Fin 512) :
    k0_pay3 (F := Ideal) x0 x1 w bh (ix4 (0 : Fin 1) r u c)
      = entry (fun k => x0 (ix3 (0 : Fin 1) r k)) (fun k => x1 (ix3 (0 : Fin 1) u k)) (fun k => w (ix2 k c)) (bh (ix2 (0 : Fin 1) c)) := by
  show k0_pay1 (F := Ideal) (k0_pay4 (F := Ideal) x0 x1 w bh) (ix4 (0 : Fin 1) r u c) = _
  unfold k0_pay1
  exact (shapeCast_abc_1abc_apply _ shapeCasts_S32x96x512_S1x32x96x512 (0 : Fin 1) r u c).trans (stage_apply x0 x1 w bh r u c)

theorem upperHalf_apply (x0 : Vec Ideal S1x32x512 .f32) (x1 : Vec Ideal S1x96x512 .f32) (w : Vec Ideal S512x512 .bf16)
    (bh : Vec Ideal S1x512 .f32) (r : Fin 32) (u : Fin 96) (c : Fin 512) :
    k0_pay1 (F := Ideal) (k0_pay4 (F := Ideal) x0 x1 w bh) (ix4 (0 : Fin 1) r u c)
      = entry (fun k => x0 (ix3 (0 : Fin 1) r k)) (fun k => x1 (ix3 (0 : Fin 1) u k)) (fun k => w (ix2 k c)) (bh (ix2 (0 : Fin 1) c)) := by
  unfold k0_pay1
  exact (shapeCast_abc_1abc_apply _ shapeCasts_S32x96x512_S1x32x96x512 (0 : Fin 1) r u c).trans (stage_apply x0 x1 w bh r u c)

end Cert.Joiner.Body

end
-- ==== Proof.BlockValue.lean ====
/-
  What the body leaves in one output block, as one function of the four input blocks.
-/
import proofs.«155946_j34565896798556_2_alg».proof.Proof.Gen.KernelIdeal.Frame
import proofs.«155946_j34565896798556_2_alg».proof.Proof.Payload

noncomputable section

namespace Cert.Joiner.Block

open Cert.KernelIdeal Cert.KernelIdeal.Gen Idealize.ShloMosaic Idealize.ShloMosaic.ValueIdx

/-- Entry (0, r, u, v) of the output block from the source block's row r, the target block's row u, column v of the
    (transposed) weight block and entry v of the bias row. -/
def blockFn (x0 : Vec Ideal S1x32x512 .f32) (x1 : Vec Ideal S1x96x512 .f32) (x2 : Vec Ideal S512x1024 .bf16)
    (x3 : Vec Ideal S1x1024 .f32) : Vec Ideal S1x32x96x1024 .f32 :=
  fun y => entry (fun k => x0 (ix3 (0 : Fin 1) (y 1) k)) (fun k => x1 (ix3 (0 : Fin 1) (y 2) k))
    (fun k => x2 (ix2 k (y 3))) (x3 (ix2 (0 : Fin 1) (y 3)))

/-! ## Where each unit-stride rectangle places its own indices

A unit-stride rectangle places coordinate `j` of axis `a` at `off a + 1 * j`. The weight block, the bias row and the
output block are each cut in two along the last axis, at column 512: the lower half keeps the column, the upper half
shifts it by 512; every other coordinate is kept. -/

/-- All-zero offsets at rank three, however the zeros are spelt. -/
private theorem zero3 : (![0, 0, 0] : Fin 3 → Nat) = fun _ => 0 := funext fun a => by fin_cases a <;> rfl

/-- Columns 0..511 of the weight block. -/
private theorem emb_weight_lo (k c : Fin 512) : r0_2.emb (ix2 k c) = ix2 k ⟨c.val, by omega⟩ := by
  funext a
  apply Fin.ext
  match a with
  | ⟨0, _⟩ => show 0 + 1 * k.val = k.val; omega
  | ⟨1, _⟩ => show 0 + 1 * c.val = c.val; omega

/-- Columns 512..1023 of the weight block. -/
private theorem emb_weight_hi (k c : Fin 512) : r0_5.emb (ix2 k c) = ix2 k ⟨c.val + 512, by omega⟩ := by
  funext a
  apply Fin.ext
  match a with
  | ⟨0, _⟩ => show 0 + 1 * k.val = k.val; omega
  | ⟨1, _⟩ => show 512 + 1 * c.val = c.val + 512; omega

/-- Entries 0..511 of the bias row. -/
private theorem emb_bias_lo (c : Fin 512) : r0_3.emb (ix2 (0 : Fin 1) c) = ix2 (0 : Fin 1) ⟨c.val, by omega⟩ := by
  funext a
  apply Fin.ext
  match a with
  | ⟨0, _⟩ => rfl
  | ⟨1, _⟩ => show 0 + 1 * c.val = c.val; omega

/-- Entries 512..1023 of the bias row. -/
private theorem emb_bias_hi (c : Fin 512) : r0_6.emb (ix2 (0 : Fin 1) c) = ix2 (0 : Fin 1) ⟨c.val + 512, by omega⟩ := by
  funext a
  apply Fin.ext
  match a with
  | ⟨0, _⟩ => rfl
  | ⟨1, _⟩ => show 512 + 1 * c.val = c.val + 512; omega

/-- Columns 0..511 of the output block. -/
private theorem emb_out_lo (r : Fin 32) (u : Fin 96) (c : Fin 512) :
    r0_4.emb (ix4 (0 : Fin 1) r u c) = ix4 (0 : Fin 1) r u ⟨c.val, by omega⟩ := by
  funext a
  apply Fin.ext
  match a with
  | ⟨0, _⟩ => rfl
  | ⟨1, _⟩ => show 0 + 1 * r.val = r.val; omega
  | ⟨2, _⟩ => show 0 + 1 * u.val = u.val; omega
  | ⟨3, _⟩ => show 0 + 1 * c.val = c.val; omega

/-- Columns 512..1023 of the output block. -/
private theorem emb_out_hi (r : Fin 32) (u : Fin 96) (c : Fin 512) :
    r0_7.emb (ix4 (0 : Fin 1) r u c) = ix4 (0 : Fin 1) r u ⟨c.val + 512, by omega⟩ := by
  funext a
  apply Fin.ext
  match a with
  | ⟨0, _⟩ => rfl
  | ⟨1, _⟩ => show 0 + 1 * r.val = r.val; omega
  | ⟨2, _⟩ => show 0 + 1 * u.val = u.val; omega
  | ⟨3, _⟩ => show 512 + 1 * c.val = c.val + 512; omega

/-! ## The two stores, each read at an index of its own rectangle

Each store's payload at (0, r, u, c) is `entry` of row r of the source block, row u of the target block, column c of
the weight half it loaded and entry c of the bias half it loaded; the half's column c is the whole block's column c
(lower half) or c + 512 (upper half), which is also the column of the output block the store writes. -/

/-- The store to columns 512..1023 agrees with `blockFn` there. -/
private theorem upper_piece (x0 : Vec Ideal S1x32x512 .f32) (x1 : Vec Ideal S1x96x512 .f32) (x2 : Vec Ideal S512x1024 .bf16)
    (x3 : Vec Ideal S1x1024 .f32) (x : r0_7.shape.Idx) :
    k0_pay1 (F := Ideal) (k0_pay4 (F := Ideal) (View.ld x0 r0_0) (View.ld x1 r0_1) (View.ld x2 r0_5) (View.ld x3 r0_6)) x
      = blockFn x0 x1 x2 x3 (r0_7.emb x) := by
  obtain ⟨a, r, u, c, rfl⟩ : ∃ a r u c, x = ix4 a r u c := ⟨x 0, x 1, x 2, x 3, eq_ix4 x⟩
  obtain rfl : a = 0 := Subsingleton.elim a 0
  rw [emb_out_hi r u c, View.ld_unit_zero zero3 _ x0, View.ld_unit_zero zero3 _ x1]
  refine (Cert.Joiner.Body.upperHalf_apply x0 x1 (View.ld x2 r0_5) (View.ld x3 r0_6) r u c).trans ?_
  unfold blockFn
  show entry (fun k => x0 (ix3 (0 : Fin 1) r k)) (fun k => x1 (ix3 (0 : Fin 1) u k))
      (fun k => x2 (r0_5.emb (ix2 k c))) (x3 (r0_6.emb (ix2 (0 : Fin 1) c))) = _
  simp only [emb_weight_hi, emb_bias_hi]

/-- The store to columns 0..511 agrees with `blockFn` there. -/
private theorem lower_piece (x0 : Vec Ideal S1x32x512 .f32) (x1 : Vec Ideal S1x96x512 .f32) (x2 : Vec Ideal S512x1024 .bf16)
    (x3 : Vec Ideal S1x1024 .f32) (x : r0_4.shape.Idx) :
    k0_pay3 (F := Ideal) (View.ld x0 r0_0) (View.ld x1 r0_1) (View.ld x2 r0_2) (View.ld x3 r0_3) x
      = blockFn x0 x1 x2 x3 (r0_4.emb x) := by
  obtain ⟨a, r, u, c, rfl⟩ : ∃ a r u c, x = ix4 a r u c := ⟨x 0, x 1, x 2, x 3, eq_ix4 x⟩
  obtain rfl : a = 0 := Subsingleton.elim a 0
  rw [emb_out_lo r u c, View.ld_unit_zero zero3 _ x0, View.ld_unit_zero zero3 _ x1]
  refine (Cert.Joiner.Body.lowerHalf_apply x0 x1 (View.ld x2 r0_2) (View.ld x3 r0_3) r u c).trans ?_
  unfold blockFn
  show entry (fun k => x0 (ix3 (0 : Fin 1) r k)) (fun k => x1 (ix3 (0 : Fin 1) u k))
      (fun k => x2 (r0_2.emb (ix2 k c))) (x3 (r0_3.emb (ix2 (0 : Fin 1) c))) = _
  simp only [emb_weight_lo, emb_bias_lo]

theorem out_eq (x0 : Vec Ideal S1x32x512 .f32) (x1 : Vec Ideal S1x96x512 .f32) (x2 : Vec Ideal S512x1024 .bf16)
    (x3 : Vec Ideal S1x1024 .f32) : out0_4 (F := Ideal) x0 x1 x2 x3 = blockFn x0 x1 x2 x3 := by
  funext y
  unfold out0_4
  refine View.canon_apply_of_pieces (blockFn x0 x1 x2 x3) _ ?_ y (cover0_4 _ _ y)
  intro p hp x
  simp only [List.mem_cons, List.mem_singleton, List.not_mem_nil, or_false] at hp
  rcases hp with rfl | rfl
  · exact upper_piece x0 x1 x2 x3 x
  · exact lower_piece x0 x1 x2 x3 x

end Cert.Joiner.Block

end
-- ==== Proof.HostPrefix.lean ====
/-
  What the kernel's region finds in the two arrays the host prepares for it.

  Before the region runs, the weight matrix `W` (1024 rows of 512) is transposed to 512 rows of 1024 and changed to a
  narrower float format, and the bias vector (1024 entries) is reshaped to one row of 1024. Over the extended reals a
  change of float format is the identity, so the prepared weight array holds, at (k, v), the entry `W(v, k)`, and the
  prepared bias row holds, at (0, v), the entry `b(v)`.
-/
import proofs.«155946_j34565896798556_2_alg».proof.Proof.Gen.KernelIdeal.Frame
import Idealize.ShloMosaic.Lib.ValueLayout
import Idealize.ShloMosaic.Lib.StableHlo.Run

noncomputable section

namespace Cert.Joiner.Prepared

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The prepared weight array is the transpose of `W`, its format changed. -/
theorem weights_eq (c : Dev nD) : @Eq (S512x1024.Idx → EReal) (V m c main_v1)
    (truncf (F := Ideal) .bf16 (transpose S512x1024 [1, 0] (m ((c : Thread nD τ).loc main_arg4)) transposes_S1024x512_S512x1024_1_0)
      bitsLt_bf16_f32) := by
  dsimp only [Gen.V, Gen.hostOps0]
  after_results <;> rfl

/-- The prepared bias row is the bias vector reshaped. -/
theorem bias_eq (c : Dev nD) : @Eq (S1x1024.Idx → EReal) (V m c main_v2)
    (shapeCast S1x1024 (m ((c : Thread nD τ).loc main_arg5)) shapeCasts_S1024_S1x1024) := by
  dsimp only [Gen.V, Gen.hostOps0]
  after_results <;> rfl

/-- Entry (k, v) of the prepared weight array is `W(v, k)`: the transpose swaps the coordinates and the change of
    format is the identity on extended reals. -/
theorem weights_entry (c : Dev nD) (k : Fin 512) (v : Fin 1024) :
    @Eq EReal (V m c main_v1 (ix2 k v)) (m ((c : Thread nD τ).loc main_arg4) (ix2 v k)) :=
  (congrFun (weights_eq m c) (ix2 k v)).trans
    (transpose_ix2_apply (m ((c : Thread nD τ).loc main_arg4)) transposes_S1024x512_S512x1024_1_0 k v)

/-- Entry (0, v) of the prepared bias row is `b(v)`. -/
theorem bias_entry (c : Dev nD) (v : Fin 1024) :
    @Eq EReal (V m c main_v2 (ix2 (0 : Fin 1) v)) (m ((c : Thread nD τ).loc main_arg5) (ix1 v)) :=
  (congrFun (bias_eq m c) (ix2 (0 : Fin 1) v)).trans
    (shapeCast_a_1a_apply (m ((c : Thread nD τ).loc main_arg5)) shapeCasts_S1024_S1x1024 (0 : Fin 1) v)

end Cert.Joiner.Prepared

end
-- ==== Proof.ArrayValue.lean ====
/-
  From blocks to the whole array.

  The kernel runs over a grid of 4 × 8 points. Point (n, q) reads the 32 source rows 32q … 32q + 31 of utterance n, all
  96 target rows of utterance n, the whole prepared weight array and the whole prepared bias row, and writes block
  (n, q) of the result: its 32 × 96 × 1024 entries (n, 32q + r, u, v).

  What a point leaves in its block is `entry` of row r of its source block, row u of its target block, column v of the
  prepared weights and entry v of the prepared bias row. Row r of the source block at point (n, q) is row (n, 32q + r)
  of the source features; row u of the target block is row (n, u) of the target features; column v of the prepared
  weights is row v of `W`; entry v of the prepared bias row is `b(v)`. So the block a point writes is the block of the
  joint function that its position names. The 32 blocks tile the result array — (n, t, u, v) lies in the block of point
  (n, t / 32) — so after the run the array is the joint function everywhere.
-/
import proofs.«155946_j34565896798556_2_alg».proof.Proof.Gen.KernelIdeal.Value
import proofs.«155946_j34565896798556_2_alg».proof.Proof.BlockValue
import proofs.«155946_j34565896798556_2_alg».proof.Proof.HostPrefix

noncomputable section

namespace Cert.Joiner.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The joint function of the four float arguments as launched. -/
def result (c : Dev nD) : S4x256x96x1024.Idx → EReal :=
  joint (m ((c : Thread nD τ).loc main_arg0)) (m ((c : Thread nD τ).loc main_arg2))
    (m ((c : Thread nD τ).loc main_arg4)) (m ((c : Thread nD τ).loc main_arg5))

/-- Where each window's block sits at a grid point, relative to the output's: the source block follows the output
    block on the utterance and frame axes; the target block follows it on the utterance axis; the prepared weights and
    bias are always their one whole block; the output block index is (n, q, 0, 0) with n ≤ 3 and q ≤ 7. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 3 ∧ win0_4.index t (1 : Fin 4) ≤ 7 :=
  (by decide +kernel : ∀ t : Fin grid0.N, _)

/-- Every block position (n, q, 0, 0) is some point's. -/
theorem idx_onto : ∀ (n : Fin 4) (q : Fin 8), ∃ t : Fin cfg0.N, win0_4.index t = ![n.val, q.val, 0, 0] :=
  (by decide +kernel : ∀ (n : Fin 4) (q : Fin 8), ∃ t : Fin grid0.N, win0_4.index t = ![n.val, q.val, 0, 0])

/-- Row r of the source block at a point is the source features' row (n, 32q + r). -/
theorem src_read (c : Dev nD) (t : Fin cfg0.N) (r : Fin 32) (k : Fin 512) (i : S4x256x512.Idx)
    (h0 : (i 0).val = win0_4.index t (0 : Fin 4)) (h1 : (i 1).val = win0_4.index t (1 : Fin 4) * 32 + r.val)
    (h2 : (i 2).val = k.val) :
    @Eq EReal (iblk m c 0 t (ix3 (0 : Fin 1) r k)) (m ((c : Thread nD τ).loc main_arg0) i) := by
  obtain ⟨e0, e1, e2, -⟩ := idx_facts t
  unfold iblk
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * ((0 : Fin 1) : Nat) = (i 0).val; rw [h0]; simp only [Fin.val_zero]; omega
  | ⟨1, _⟩ => show win0_0.index t (1 : Fin 3) * 32 + 1 * r.val = (i 1).val; omega
  | ⟨2, _⟩ => show win0_0.index t (2 : Fin 3) * 512 + 1 * k.val = (i 2).val; omega

/-- Row u of the target block at a point is the target features' row (n, u). -/
theorem tgt_read (c : Dev nD) (t : Fin cfg0.N) (u : Fin 96) (k : Fin 512) (i : S4x96x512.Idx)
    (h0 : (i 0).val = win0_4.index t (0 : Fin 4)) (h1 : (i 1).val = u.val) (h2 : (i 2).val = k.val) :
    @Eq EReal (iblk m c 1 t (ix3 (0 : Fin 1) u k)) (m ((c : Thread nD τ).loc main_arg2) i) := by
  obtain ⟨-, -, -, e0, e1, e2, -⟩ := idx_facts t
  unfold iblk
  show V m c main_arg2 (((cfg0.win 1).blk t).view.emb (ix3 (0 : Fin 1) u k)) = _
  rw [V_main_arg2]
  refine congrArg _ (funext fun a => Fin.ext ?_)
  match a with
  | ⟨0, _⟩ => show win0_1.index t (0 : Fin 3) * 1 + 1 * ((0 : Fin 1) : Nat) = (i 0).val; rw [h0]; simp only [Fin.val_zero]; omega
  | ⟨1, _⟩ => show win0_1.index t (1 : Fin 3) * 96 + 1 * u.val = (i 1).val; omega
  | ⟨2, _⟩ => show win0_1.index t (2 : Fin 3) * 512 + 1 * k.val = (i 2).val; omega

/-- Column v of the weight block at a point is row v of the weights. -/
theorem wgt_read (c : Dev nD) (t : Fin cfg0.N) (k : Fin 512) (v : Fin 1024) (i : S1024x512.Idx)
    (h0 : (i 0).val = v.val) (h1 : (i 1).val = k.val) :
    @Eq EReal (iblk m c 2 t (ix2 k v)) (m ((c : Thread nD τ).loc main_arg4) i) := by
  obtain ⟨-, -, -, -, -, -, e0, e1, -⟩ := idx_facts t
  unfold iblk
  show V m c main_v1 (((cfg0.win 2).blk t).view.emb (ix2 k v)) = _
  have hemb : ((cfg0.win 2).blk t).view.emb (ix2 k v) = ix2 k v := by
    funext a; apply Fin.ext
    match a with
    | ⟨0, _⟩ => show win0_2.index t (0 : Fin 2) * 512 + 1 * k.val = k.val; omega
    | ⟨1, _⟩ => show win0_2.index t (1 : Fin 2) * 1024 + 1 * v.val = v.val; omega
  rw [hemb]
  refine (Prepared.weights_entry m c k v).trans (congrArg _ (funext fun a => Fin.ext ?_))
  match a with
  | ⟨0, _⟩ => exact h0.symm
  | ⟨1, _⟩ => exact h1.symm

/-- Entry v of the bias block at a point is the bias at v. -/
theorem bias_read (c : Dev nD) (t : Fin cfg0.N) (v : Fin 1024) (i : S1024.Idx) (h0 : (i 0).val = v.val) :
    @Eq EReal (iblk m c 3 t (ix2 (0 : Fin 1) v)) (m ((c : Thread nD τ).loc main_arg5) i) := by
  obtain ⟨-, -, -, -, -, -, -, -, e0, e1, -⟩ := idx_facts t
  unfold iblk
  show V m c main_v2 (((cfg0.win 3).blk t).view.emb (ix2 (0 : Fin 1) v)) = _
  have hemb : ((cfg0.win 3).blk t).view.emb (ix2 (0 : Fin 1) v) = ix2 (0 : Fin 1) v := by
    funext a; apply Fin.ext
    match a with
    | ⟨0, _⟩ => show win0_3.index t (0 : Fin 2) * 1 + 1 * ((0 : Fin 1) : Nat) = ((0 : Fin 1) : Nat); simp only [Fin.val_zero]; omega
    | ⟨1, _⟩ => show win0_3.index t (1 : Fin 2) * 1024 + 1 * v.val = v.val; omega
  rw [hemb]
  refine (Prepared.bias_entry m c v).trans (congrArg _ (funext fun a => Fin.ext ?_))
  match a with
  | ⟨0, _⟩ => exact h0.symm

/-- What a point writes back is its block of the joint function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, Block.out_eq]
  obtain ⟨-, -, -, -, -, -, -, -, -, -, e2, e3, -⟩ := idx_facts t
  funext j
  obtain ⟨a, r, u, v, rfl⟩ : ∃ (a : Fin 1) (r : Fin 32) (u : Fin 96) (v : Fin 1024), j = ix4 a r u v :=
    ⟨j 0, j 1, j 2, j 3, eq_ix4 j⟩
  show Block.blockFn (iblk m c 0 t) (iblk m c 1 t) (iblk m c 2 t) (iblk m c 3 t) (ix4 a r u v)
      = result m c (((cfg0.win 4).blk t).view.emb (ix4 a r u v))
  generalize hE : ((cfg0.win 4).blk t).view.emb (ix4 a r u v) = E
  have E0 : (E 0).val = win0_4.index t (0 : Fin 4) := by
    rw [← hE]; show win0_4.index t (0 : Fin 4) * 1 + 1 * a.val = _; have := a.isLt; omega
  have E1 : (E 1).val = win0_4.index t (1 : Fin 4) * 32 + r.val := by
    rw [← hE]; show win0_4.index t (1 : Fin 4) * 32 + 1 * r.val = _; omega
  have E2 : (E 2).val = u.val := by
    rw [← hE]; show win0_4.index t (2 : Fin 4) * 96 + 1 * u.val = _; omega
  have E3 : (E 3).val = v.val := by
    rw [← hE]; show win0_4.index t (3 : Fin 4) * 1024 + 1 * v.val = _; omega
  show entry (fun k => iblk m c 0 t (ix3 (0 : Fin 1) r k)) (fun k => iblk m c 1 t (ix3 (0 : Fin 1) u k))
        (fun k => iblk m c 2 t (ix2 k v)) (iblk m c 3 t (ix2 (0 : Fin 1) v))
      = entry (fun k => m ((c : Thread nD τ).loc main_arg0) (ix3 (E 0) (E 1) k))
        (fun k => m ((c : Thread nD τ).loc main_arg2) (ix3 (E 0) (E 2) k))
        (fun k => m ((c : Thread nD τ).loc main_arg4) (ix2 (E 3) k)) (m ((c : Thread nD τ).loc main_arg5) (ix1 (E 3)))
  rw [show (fun k => iblk m c 0 t (ix3 (0 : Fin 1) r k)) = fun k => m ((c : Thread nD τ).loc main_arg0) (ix3 (E 0) (E 1) k) from
        funext fun k => src_read m c t r k (ix3 (E 0) (E 1) k) E0 E1 rfl,
    show (fun k => iblk m c 1 t (ix3 (0 : Fin 1) u k)) = fun k => m ((c : Thread nD τ).loc main_arg2) (ix3 (E 0) (E 2) k) from
        funext fun k => tgt_read m c t u k (ix3 (E 0) (E 2) k) E0 E2 rfl,
    show (fun k => iblk m c 2 t (ix2 k v)) = fun k => m ((c : Thread nD τ).loc main_arg4) (ix2 (E 3) k) from
        funext fun k => wgt_read m c t k v (ix2 (E 3) k) E3 rfl,
    show iblk m c 3 t (ix2 (0 : Fin 1) v) = m ((c : Thread nD τ).loc main_arg5) (ix1 (E 3)) from
        bias_read m c t v (ix1 (E 3)) E3]

/-- An index of the result array is in a point's block exactly when each coordinate is in the block's range. -/
theorem mem_blk (t : Fin cfg0.N) (i : S4x256x96x1024.Idx) :
    i ∈ ((cfg0.win 4).blk t).view.set ↔ ∀ a : Fin 4, win0_4.index t a * S1x32x96x1024.size a ≤ (i a).val
      ∧ (i a).val < win0_4.index t a * S1x32x96x1024.size a + S1x32x96x1024.size a := by
  show i ∈ ((View.whole main_v3).slice (win0_4.rect t)).set ↔ _
  rw [View.set_slice_whole, Rect.mem_set_unit]
  exact Iff.rfl

/-- The blocks tile the result array: (n, t, u, v) is in the block of the point at position (n, t / 32). -/
theorem covered (i : S4x256x96x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 96 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 96 ≤ (i 2).val ∧ (i 2).val < win0_4.index t (2 : Fin 4) * 96 + 96; omega
  | ⟨3, _⟩ => show win0_4.index t (3 : Fin 4) * 1024 ≤ (i 3).val ∧ (i 3).val < win0_4.index t (3 : Fin 4) * 1024 + 1024; omega

/-- After the run the result array is the joint function of the arguments. -/
theorem final (c : Dev nD) : (dats m 0 c).arrAt 4 cfg0.N = result m c :=
  (dats m 0 c).arrAt_eq_of_cover 4 (result m c) (fun t _ => flushed_eq m c t) covered

/-- The kernel's run: every weakly fair execution terminates with the result array at the joint function of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Joiner.Array

end
-- ==== Proof.RefIsSpec.lean ====
/-
  The reference's last stage is the joint function of its four float arguments.

  Read at an index (n, t, u, v), the last stage is the dot product's entry plus the broadcast bias. The dot
  product's entry is the sum over k of the clipped sum of the two broadcast feature arrays at (n, t, u, k) times
  the weight at (v, k). Each broadcast reads its operand at a composed index map, and each composed map is the
  index the joint function names: (n, t, k) for the source features, (n, u, k) for the target features, (v, k) for
  the weights, (v) for the bias. The clipping constant is the float32 zero. The products are formed in the same
  order on both sides, so the two sums agree term by term.
-/
import proofs.«155946_j34565896798556_2_alg».proof.Proof.Gen.ReferenceIdeal.Read
import proofs.«155946_j34565896798556_2_alg».proof.Proof.Spec

noncomputable section

namespace Cert.Joiner.Ref

open Cert.ReferenceIdeal Cert.ReferenceIdeal.Read Idealize.ShloMosaic Idealize.ShloMosaic.ValueIdx

/-- The source features are read at (n, t, k). -/
theorem src_idx (i : S4x256x96x1024.Idx) (k : Fin 512) :
    idx_main_v0 (idx_main_v2 (lidx_main_v6 i k)) = ix3 (i 0) (i 1) k :=
  funext fun a => Fin.ext (by match a with | ⟨0, _⟩ => rfl | ⟨1, _⟩ => rfl | ⟨2, _⟩ => rfl)

/-- The target features are read at (n, u, k). -/
theorem tgt_idx (i : S4x256x96x1024.Idx) (k : Fin 512) :
    idx_main_v1 (idx_main_v3 (lidx_main_v6 i k)) = ix3 (i 0) (i 2) k :=
  funext fun a => Fin.ext (by match a with | ⟨0, _⟩ => rfl | ⟨1, _⟩ => rfl | ⟨2, _⟩ => rfl)

/-- The weights are read at (v, k). -/
theorem wgt_idx (i : S4x256x96x1024.Idx) (k : Fin 512) : ridx_main_v6 i k = ix2 (i 3) k :=
  funext fun a => Fin.ext (by match a with | ⟨0, _⟩ => rfl | ⟨1, _⟩ => rfl)

/-- The bias is read at (v). -/
theorem bias_idx (i : S4x256x96x1024.Idx) : idx_main_v7 (idx_main_v8 i) = ix1 (i 3) :=
  funext fun a => Fin.ext (by match a with | ⟨0, _⟩ => rfl)

/-- One term of the dot product: the clipped sum of the two feature entries. -/
theorem relu_term (x0 : (⟨S4x256x512, .f32⟩ : BufTy).Contents (Elt Ideal)) (x2 : (⟨S4x96x512, .f32⟩ : BufTy).Contents (Elt Ideal))
    (i : S4x256x96x1024.Idx) (k : Fin 512) :
    val_main_v5 (F := Ideal) x0 x2 (lidx_main_v6 i k) = max (x0 (ix3 (i 0) (i 1) k) + x2 (ix3 (i 0) (i 2) k)) 0 := by
  rw [val_main_v5_apply, val_main_v4_apply, val_main_v2_apply, val_main_v0_apply, val_main_v3_apply, val_main_v1_apply,
    val_main_call0_v0_apply, val_main_call0_cst_apply, src_idx, tgt_idx]
  show max (x0 (ix3 (i 0) (i 1) k) + x2 (ix3 (i 0) (i 2) k)) (Ideal.ofBits .f32 0x00000000#32) = _
  rw [Ideal.ofBits_zero_f32]

theorem stage_eq_joint (x0 : (⟨S4x256x512, .f32⟩ : BufTy).Contents (Elt Ideal)) (x2 : (⟨S4x96x512, .f32⟩ : BufTy).Contents (Elt Ideal))
    (x4 : (⟨S1024x512, .f32⟩ : BufTy).Contents (Elt Ideal)) (x5 : (⟨S1024, .f32⟩ : BufTy).Contents (Elt Ideal)) :
    val_main_v9 (F := Ideal) x0 x2 x4 x5 = joint x0 x2 x4 x5 := by
  funext i
  rw [val_main_v9_apply, val_main_v6_apply, val_main_v8_apply, val_main_v7_apply, bias_idx]
  show (∑ k : Fin 512, val_main_v5 (F := Ideal) x0 x2 (lidx_main_v6 i k) * x4 (ridx_main_v6 i k)) + x5 (ix1 (i 3))
    = (∑ k : Fin 512, max (x0 (ix3 (i 0) (i 1) k) + x2 (ix3 (i 0) (i 2) k)) 0 * x4 (ix2 (i 3) k)) + x5 (ix1 (i 3))
  refine congrArg (· + x5 (ix1 (i 3))) (Finset.sum_congr rfl fun k _ => ?_)
  rw [relu_term, wgt_idx]
  rfl

end Cert.Joiner.Ref

end
-- ==== Proof.lean ====
/-
  A joint network's kernel against its reference: source features `s` (4 × 256 × 512), target features `g` (4 × 96 × 512),
  weights `W` (1024 × 512) and a bias `b` (1024); the result's entry (n, t, u, v) is
      (∑ k, max (s(n,t,k) + g(n,u,k)) 0 · W(v,k)) + b(v)
  (`Cert.Joiner.joint`, Proof/Spec.lean). Two integer arrays are passed through unchanged by both programs.

  The reference forms the 4 × 256 × 96 × 512 array of clipped sums by broadcasting, contracts its last axis with the
  last axis of `W`, and adds the broadcast bias: read at an index that is the expression above (Proof/RefIsSpec.lean).

  The kernel first transposes `W` and reshapes `b` to a row (a change of float format in between is the identity on
  extended reals: Proof/HostPrefix.lean), then runs over a 4 × 8 grid. Each point forms the clipped sums of its 32 source
  rows with the 96 target rows as a 3072-row matrix and multiplies it, in two column halves, into a zero accumulator by
  the transposed weights, adding the bias row: each stored entry is the same expression over the point's blocks
  (Proof/Payload.lean), the two halves together give the point's whole block (Proof/BlockValue.lean), and the blocks of
  the 32 points tile the result (Proof/ArrayValue.lean). The sum over k runs over the same products in both programs,
  and `0 + x = x` for every extended real, so no finiteness of the inputs is used.

  The three frame claims are the generated frame runs; the kernel's idealization rewrote nothing.
-/
import proofs.«155946_j34565896798556_2_alg».proof.Defs
import proofs.«155946_j34565896798556_2_alg».proof.Proof.Gen.Kernel
import proofs.«155946_j34565896798556_2_alg».proof.Proof.Gen.Kernel.Skeleton
import proofs.«155946_j34565896798556_2_alg».proof.Proof.Gen.Kernel.Launch
import proofs.«155946_j34565896798556_2_alg».proof.Proof.Gen.Kernel.Points
import proofs.«155946_j34565896798556_2_alg».proof.Proof.Gen.Kernel.Frame
import proofs.«155946_j34565896798556_2_alg».proof.Proof.Gen.KernelIdeal
import proofs.«155946_j34565896798556_2_alg».proof.Proof.Gen.KernelIdeal.Skeleton
import proofs.«155946_j34565896798556_2_alg».proof.Proof.Gen.KernelIdeal.Launch
import proofs.«155946_j34565896798556_2_alg».proof.Proof.Gen.KernelIdeal.Points
import proofs.«155946_j34565896798556_2_alg».proof.Proof.Gen.KernelIdeal.Frame
import proofs.«155946_j34565896798556_2_alg».proof.Proof.Gen.ReferenceIdeal
import proofs.«155946_j34565896798556_2_alg».proof.Proof.Gen.Pre_finite_inputs
import proofs.«155946_j34565896798556_2_alg».proof.Proof.Gen.KernelIdeal.Value
import proofs.«155946_j34565896798556_2_alg».proof.Proof.Gen.ReferenceIdeal.Run
import proofs.«155946_j34565896798556_2_alg».proof.Proof.Gen.ReferenceIdeal.Read
import proofs.«155946_j34565896798556_2_alg».proof.Proof.ArrayValue
import proofs.«155946_j34565896798556_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its results dropped, is its frame. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both runs end with the result array at the joint function of the arguments, and with the two integer arrays as
    launched; the arguments agree, so the results do. -/
theorem algebraic : Cert.algebraic_KernelIdeal_ReferenceIdeal := by
  intro m ρ m' ρ' _ hagree
  refine ⟨fun c => Cert.Joiner.Array.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · refine (θ_run Cert.KernelIdeal.defs _ _).mono (fun r h c => ?_) (Cert.Joiner.Array.run m ρ)
    obtain ⟨h3, k0, k1, k2, k3, k4, k5⟩ := h c
    exact ⟨h3, k1, k3, k0, k1, k2, k3, k4, k5⟩
  · refine (θ_run Cert.ReferenceIdeal.defs _ _).mono (fun r h c => ?_) (Cert.ReferenceIdeal.Value.run (F := Ideal) m' ρ')
    obtain ⟨h9, k1, k3, rest⟩ := h c
    obtain ⟨a0, a1, a2, a3, a4, a5⟩ := hagree c
    refine ⟨?_, k1.trans a1, k3.trans a3, rest⟩
    rw [h9, Cert.ReferenceIdeal.Read.val_main_v9_eq, Cert.Joiner.Ref.stage_eq_joint, a0, a2, a4, a5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
